-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64x256 : Shape := ⟨3, ![4096, 64, 256]⟩
abbrev S64x8 : Shape := ⟨2, ![64, 8]⟩
abbrev S4096x1x256 : Shape := ⟨3, ![4096, 1, 256]⟩
abbrev S4096x256 : Shape := ⟨2, ![4096, 256]⟩
abbrev S_ : Shape := ⟨0, ![]⟩

class Facts : Prop where
  bcast_S_S4096x64x256 : S_.BroadcastsInDim S4096x64x256 (![] : Fin 0 → Fin S4096x64x256.rank)
  reducesTo_S4096x64x256_S_d0_1_2 : S4096x64x256.ReducesTo [0, 1, 2] S_
  h_S_ : 0 < S_.numel
  bcast_S_S4096x1x256 : S_.BroadcastsInDim S4096x1x256 (![] : Fin 0 → Fin S4096x1x256.rank)
  reducesTo_S4096x1x256_S_d0_1_2 : S4096x1x256.ReducesTo [0, 1, 2] S_
  bcast_S_S4096x256 : S_.BroadcastsInDim S4096x256 (![] : Fin 0 → Fin S4096x256.rank)
  reducesTo_S4096x256_S_d0_1 : S4096x256.ReducesTo [0, 1] S_

variable [Facts]

def fn {F : FTy → Type} [FloatOps F] (main_arg0 : FVec F S4096x64x256 .f32) (main_arg1 : IVec S64x8 32) (main_arg2 : FVec F S4096x1x256 .f32) (main_arg3 : FVec F S4096x256 .f32) : IVec S_ 1 :=
  let main_v0 : FVec F S4096x64x256 .f32 := Host.absf main_arg0
  let main_cst : FVec F S_ .f32 := constant S_ .f32 0x7F800000#32
  let main_v1 : FVec F S4096x64x256 .f32 := broadcastInDim S4096x64x256 ![] bcast_S_S4096x64x256 main_cst
  let main_v2 : IVec S4096x64x256 1 := cmpf .olt main_v0 main_v1
  let main_c : IVec S_ 1 := constantI S_ 1 1#1
  let main_v3 : IVec S_ 1 := (fun x v => Host.reduce IntOp.andi x v reducesTo_S4096x64x256_S_d0_1_2 h_S_) main_v2 main_c
  let main_v4 : FVec F S4096x1x256 .f32 := Host.absf main_arg2
  let main_cst_0 : FVec F S_ .f32 := constant S_ .f32 0x7F800000#32
  let main_v5 : FVec F S4096x1x256 .f32 := broadcastInDim S4096x1x256 ![] bcast_S_S4096x1x256 main_cst_0
  let main_v6 : IVec S4096x1x256 1 := cmpf .olt main_v4 main_v5
  let main_c_1 : IVec S_ 1 := constantI S_ 1 1#1
  let main_v7 : IVec S_ 1 := (fun x v => Host.reduce IntOp.andi x v reducesTo_S4096x1x256_S_d0_1_2 h_S_) main_v6 main_c_1
  let main_v8 : IVec S_ 1 := andi main_v3 main_v7
  let main_v9 : FVec F S4096x256 .f32 := Host.absf main_arg3
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  main_v13
-- ==== Kernel.lean ====
abbrev S4096x64x256 : Shape := ⟨3, ![4096, 64, 256]⟩
abbrev S64x8 : Shape := ⟨2, ![64, 8]⟩
abbrev S4096x1x256 : Shape := ⟨3, ![4096, 1, 256]⟩
abbrev S4096x256 : Shape := ⟨2, ![4096, 256]⟩
abbrev S_ : Shape := ⟨0, ![]⟩
abbrev S64x8x1 : Shape := ⟨3, ![64, 8, 1]⟩
abbrev S64x8x256 : Shape := ⟨3, ![64, 8, 256]⟩
abbrev S64x64x256 : Shape := ⟨3, ![64, 64, 256]⟩
abbrev S64x1x256 : Shape := ⟨3, ![64, 1, 256]⟩
abbrev S64x64x8 : Shape := ⟨3, ![64, 64, 8]⟩
abbrev S64x1x8 : Shape := ⟨3, ![64, 1, 8]⟩

abbrev nBuf : Space → Nat
  | .hbm => 29
  | .vmem => 8
  | .smem => 0
  | _ => 0

abbrev bufTy : (tb : Table) → Fin (tcTables nBuf tb) → BufTy
  | .hbm, ⟨0, _⟩ => ⟨S4096x64x256, .f32⟩
  | .hbm, ⟨1, _⟩ => ⟨S64x8, .i32⟩
  | .hbm, ⟨2, _⟩ => ⟨S4096x1x256, .f32⟩
  | .hbm, ⟨3, _⟩ => ⟨S4096x256, .f32⟩
  | .hbm, ⟨4, _⟩ => ⟨S_, .i32⟩
  | .hbm, ⟨5, _⟩ => ⟨S64x8, .i32⟩
  | .hbm, ⟨6, _⟩ => ⟨S64x8, .i1⟩
  | .hbm, ⟨7, _⟩ => ⟨S_, .i32⟩
  | .hbm, ⟨8, _⟩ => ⟨S64x8, .i32⟩
  | .hbm, ⟨9, _⟩ => ⟨S64x8, .i1⟩
  | .hbm, ⟨10, _⟩ => ⟨S64x8, .i1⟩
  | .hbm, ⟨11, _⟩ => ⟨S_, .i32⟩
  | .hbm, ⟨12, _⟩ => ⟨S_, .i32⟩
  | .hbm, ⟨13, _⟩ => ⟨S64x8, .i32⟩
  | .hbm, ⟨14, _⟩ => ⟨S64x8, .i32⟩
  | .hbm, ⟨15, _⟩ => ⟨S_, .i32⟩
  | .hbm, ⟨16, _⟩ => ⟨S64x8, .i32⟩
  | .hbm, ⟨17, _⟩ => ⟨S64x8, .i1⟩
  | .hbm, ⟨18, _⟩ => ⟨S_, .i32⟩
  | .hbm, ⟨19, _⟩ => ⟨S64x8, .i32⟩
  | .hbm, ⟨20, _⟩ => ⟨S64x8, .i32⟩
  | .hbm, ⟨21, _⟩ => ⟨S64x8, .i32⟩
  | .hbm, ⟨22, _⟩ => ⟨S64x8x1, .i32⟩
  | .hbm, ⟨23, _⟩ => ⟨S64x8x256, .f32⟩
  | .hbm, ⟨24, _⟩ => ⟨S64x8x1, .i1⟩
  | .hbm, ⟨25, _⟩ => ⟨S64x8x1, .f32⟩
  | .hbm, ⟨26, _⟩ => ⟨S64x8x256, .f32⟩
  | .hbm, ⟨27, _⟩ => ⟨S64x8x256, .f32⟩
  | .hbm, ⟨28, _⟩ => ⟨S4096x64x256, .f32⟩
  | .local _ .vmem, ⟨0, _⟩ => ⟨S64x64x256, .f32⟩
  | .local _ .vmem, ⟨1, _⟩ => ⟨S64x64x256, .f32⟩
  | .local _ .vmem, ⟨2, _⟩ => ⟨S64x1x256, .f32⟩
  | .local _ .vmem, ⟨3, _⟩ => ⟨S64x1x256, .f32⟩
  | .local _ .vmem, ⟨4, _⟩ => ⟨S64x8, .i32⟩
  | .local _ .vmem, ⟨5, _⟩ => ⟨S64x8x256, .f32⟩
  | .local _ .vmem, ⟨6, _⟩ => ⟨S64x64x256, .f32⟩
  | .local _ .vmem, ⟨7, _⟩ => ⟨S64x64x256, .f32⟩
  | _, _ => ⟨S4096x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_v5 : Ref sig .tc := ⟨.hbm, 14, rfl⟩
abbrev main_c_2 : Ref sig .tc := ⟨.hbm, 15, rfl⟩
abbrev main_v6 : Ref sig .tc := ⟨.hbm, 16, rfl⟩
abbrev main_v7 : Ref sig .tc := ⟨.hbm, 17, rfl⟩
abbrev main_c_3 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x8 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S64x8 : S_.BroadcastsInDim S64x8 (![] : Fin 0 → Fin S64x8.rank)
  bcast_S64x8_S64x8x1_0_1 : S64x8.BroadcastsInDim S64x8x1 (![0, 1] : Fin 2 → Fin S64x8x1.rank)
  bcast_S64x8x1_S64x8x256_0_1_2 : S64x8x1.BroadcastsInDim S64x8x256 (![0, 1, 2] : Fin 3 → Fin S64x8x256.rank)
  iota_S64x64x8_d1_w32 : S64x64x8.Iotas .tc 32 [1]
  inb_S64x8_S64x8_0_0 : ∀ a, (![0, 0] : Fin 2 → Nat) a + S64x8.size a ≤ S64x8.size a
  h_S64x8 : 0 < S64x8.numel
  shapeCasts_S64x8_S64x8 : S64x8.ShapeCasts S64x8
  shapeCasts_S64x8_S64x1x8 : S64x8.ShapeCasts S64x1x8
  broadcasts_S64x1x8_S64x64x8 : S64x1x8.Broadcasts S64x64x8
  natLt_1_32 : 1 < 32
  bitsLt_bf16_f32 : FTy.bits .bf16 < FTy.bits .f32
  inb_S64x8x256_S64x8x256_0_0_0 : ∀ a, (![0, 0, 0] : Fin 3 → Nat) a + S64x8x256.size a ≤ S64x8x256.size a
  h_S64x8x256 : 0 < S64x8x256.numel
  shapeCasts_S64x8x256_S64x8x256 : S64x8x256.ShapeCasts S64x8x256
  transposes_S64x64x256_p1_0_2_S64x64x256 : S64x64x256.Transposes [1, 0, 2] S64x64x256
  inb_S64x64x256_S64x64x256_0_0_0 : ∀ a, (![0, 0, 0] : Fin 3 → Nat) a + S64x64x256.size a ≤ S64x64x256.size a
  h_S64x64x256 : 0 < S64x64x256.numel
  inb_S64x1x256_S64x1x256_0_0_0 : ∀ a, (![0, 0, 0] : Fin 3 → Nat) a + S64x1x256.size a ≤ S64x1x256.size a
  h_S64x1x256 : 0 < S64x1x256.numel
  broadcasts_S64x1x256_S64x64x256 : S64x1x256.Broadcasts S64x64x256
  gather_S4096x256_S64x8x1_S64x8x256_2_0_n_n_0_2_1256_wf : GatherDims.WF S4096x256 S64x8x1 S64x8x256 [2] [0] [] [0] [] 2 ![1, 256]
  dot_S64x64x8_S64x8x256_S64x64x256_2_1_1_2_0_0_wf : DotDims.WF S64x64x8 S64x8x256 S64x64x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x64x256.size a ≤ S4096x64x256.size a
  hwx0_0 : ∀ i : grid0.Coords, EltTy.bits .f32 = 32 ∨ (Rect.block (s := S4096x64x256) S64x64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1x256.size a ≤ S4096x1x256.size a
  hwx0_1 : ∀ i : grid0.Coords, EltTy.bits .f32 = 32 ∨ (Rect.block (s := S4096x1x256) S64x1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x8.size a ≤ S64x8.size a
  hwx0_2 : ∀ i : grid0.Coords, EltTy.bits .i32 = 32 ∨ (Rect.block (s := S64x8) S64x8.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x8x256.size a ≤ S64x8x256.size a
  hwx0_3 : ∀ i : grid0.Coords, EltTy.bits .f32 = 32 ∨ (Rect.block (s := S64x8x256) S64x8x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x64x256.size a ≤ S4096x64x256.size a
  hwx0_4 : ∀ i : grid0.Coords, EltTy.bits .f32 = 32 ∨ (Rect.block (s := S4096x64x256) S64x64x256.size (cc0_transform_4 i) (hinb0_4 i)).WholeWords (EltTy.packing .f32)

variable [Facts₀]

def gather_S4096x256_S64x8x1_S64x8x256_2_0_n_n_0_2_1256 : GatherDims S4096x256 S64x8x1 S64x8x256 where
  offsetDims := [2]
  collapsedSliceDims := [0]
  operandBatchingDims := []
  startIndicesBatchingDims := []
  startIndexMap := [0]
  indexVectorDim := 2
  sliceSizes := ![1, 256]
  wf := gather_S4096x256_S64x8x1_S64x8x256_2_0_n_n_0_2_1256_wf
def dot_S64x64x8_S64x8x256_S64x64x256_2_1_1_2_0_0 : DotDims S64x64x8 S64x8x256 S64x64x256 where
  lhsContracting := [2]
  rhsContracting := [1]
  lhsNonContracting := [1]
  rhsNonContracting := [2]
  lhsBatch := [0]
  rhsBatch := [0]
  wf := dot_S64x64x8_S64x8x256_S64x64x256_2_1_1_2_0_0_wf

abbrev win0_0 : Pipeline.Window sig grid0 :=
  Pipeline.Window.ofSpec (Memref.whole main_arg0) S64x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x1x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S64x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S64x8x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S64x64x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x64x256 : Shape := ⟨3, ![4096, 64, 256]⟩
abbrev S64x8 : Shape := ⟨2, ![64, 8]⟩
abbrev S4096x1x256 : Shape := ⟨3, ![4096, 1, 256]⟩
abbrev S4096x256 : Shape := ⟨2, ![4096, 256]⟩
abbrev S_ : Shape := ⟨0, ![]⟩
abbrev S64x8x1 : Shape := ⟨3, ![64, 8, 1]⟩
abbrev S64x8x256 : Shape := ⟨3, ![64, 8, 256]⟩
abbrev S64 : Shape := ⟨1, ![64]⟩
abbrev S64x1 : Shape := ⟨2, ![64, 1]⟩
abbrev S64x8x2 : Shape := ⟨3, ![64, 8, 2]⟩

abbrev nBuf : Space → Nat
  | .hbm => 54
  | .vmem => 0
  | .smem => 0
  | _ => 0

abbrev bufTy : (tb : Table) → Fin (tcTables nBuf tb) → BufTy
  | .hbm, ⟨0, _⟩ => ⟨S4096x64x256, .f32⟩
  | .hbm, ⟨1, _⟩ => ⟨S64x8, .i32⟩
  | .hbm, ⟨2, _⟩ => ⟨S4096x1x256, .f32⟩
  | .hbm, ⟨3, _⟩ => ⟨S4096x256, .f32⟩
  | .hbm, ⟨4, _⟩ => ⟨S4096x64x256, .f32⟩
  | .hbm, ⟨5, _⟩ => ⟨S4096x64x256, .f32⟩
  | .hbm, ⟨6, _⟩ => ⟨S_, .i32⟩
  | .hbm, ⟨7, _⟩ => ⟨S64x8, .i32⟩
  | .hbm, ⟨8, _⟩ => ⟨S64x8, .i1⟩
  | .hbm, ⟨9, _⟩ => ⟨S_, .i32⟩
  | .hbm, ⟨10, _⟩ => ⟨S64x8, .i32⟩
  | .hbm, ⟨11, _⟩ => ⟨S64x8, .i1⟩
  | .hbm, ⟨12, _⟩ => ⟨S64x8, .i1⟩
  | .hbm, ⟨13, _⟩ => ⟨S_, .i32⟩
  | .hbm, ⟨14, _⟩ => ⟨S_, .i32⟩
  | .hbm, ⟨15, _⟩ => ⟨S64x8, .i32⟩
  | .hbm, ⟨16, _⟩ => ⟨S64x8, .i32⟩
  | .hbm, ⟨17, _⟩ => ⟨S_, .i32⟩
  | .hbm, ⟨18, _⟩ => ⟨S64x8, .i32⟩
  | .hbm, ⟨19, _⟩ => ⟨S64x8, .i1⟩
  | .hbm, ⟨20, _⟩ => ⟨S_, .i32⟩
  | .hbm, ⟨21, _⟩ => ⟨S64x8, .i32⟩
  | .hbm, ⟨22, _⟩ => ⟨S64x8, .i32⟩
  | .hbm, ⟨23, _⟩ => ⟨S64x8, .i32⟩
  | .hbm, ⟨24, _⟩ => ⟨S64x8x1, .i32⟩
  | .hbm, ⟨25, _⟩ => ⟨S64x8x256, .f32⟩
  | .hbm, ⟨26, _⟩ => ⟨S64x8x1, .i1⟩
  | .hbm, ⟨27, _⟩ => ⟨S64x8x1, .f32⟩
  | .hbm, ⟨28, _⟩ => ⟨S64x8x256, .f32⟩
  | .hbm, ⟨29, _⟩ => ⟨S64x8x256, .f32⟩
  | .hbm, ⟨30, _⟩ => ⟨S64, .i32⟩
  | .hbm, ⟨31, _⟩ => ⟨S64x1, .i32⟩
  | .hbm, ⟨32, _⟩ => ⟨S64x8, .i32⟩
  | .hbm, ⟨33, _⟩ => ⟨S_, .f32⟩
  | .hbm, ⟨34, _⟩ => ⟨S4096x64x256, .f32⟩
  | .hbm, ⟨35, _⟩ => ⟨S_, .i32⟩
  | .hbm, ⟨36, _⟩ => ⟨S64x8, .i32⟩
  | .hbm, ⟨37, _⟩ => ⟨S64x8, .i1⟩
  | .hbm, ⟨38, _⟩ => ⟨S_, .i32⟩
  | .hbm, ⟨39, _⟩ => ⟨S64x8, .i32⟩
  | .hbm, ⟨40, _⟩ => ⟨S64x8, .i32⟩
  | .hbm, ⟨41, _⟩ => ⟨S64x8, .i32⟩
  | .hbm, ⟨42, _⟩ => ⟨S_, .i32⟩
  | .hbm, ⟨43, _⟩ => ⟨S64x8, .i32⟩
  | .hbm, ⟨44, _⟩ => ⟨S64x8, .i1⟩
  | .hbm, ⟨45, _⟩ => ⟨S_, .i32⟩
  | .hbm, ⟨46, _⟩ => ⟨S64x8, .i32⟩
  | .hbm, ⟨47, _⟩ => ⟨S64x8, .i32⟩
  | .hbm, ⟨48, _⟩ => ⟨S64x8, .i32⟩
  | .hbm, ⟨49, _⟩ => ⟨S64x8x1, .i32⟩
  | .hbm, ⟨50, _⟩ => ⟨S64x8x1, .i32⟩
  | .hbm, ⟨51, _⟩ => ⟨S64x8x2, .i32⟩
  | .hbm, ⟨52, _⟩ => ⟨S4096x64x256, .f32⟩
  | .hbm, ⟨53, _⟩ => ⟨S4096x64x256, .f32⟩
  | _, _ => ⟨S4096x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_c_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_c_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]

class Facts₀ : Prop where
  bcast_S4096x1x256_S4096x64x256_0_1_2 : S4096x1x256.BroadcastsInDim S4096x64x256 (![0, 1, 2] : Fin 3 → Fin S4096x64x256.rank)
  bcast_S_S64x8 : S_.BroadcastsInDim S64x8 (![] : Fin 0 → Fin S64x8.rank)
  bcast_S64x8_S64x8x1_0_1 : S64x8.BroadcastsInDim S64x8x1 (![0, 1] : Fin 2 → Fin S64x8x1.rank)
  bcast_S64x8x1_S64x8x256_0_1_2 : S64x8x1.BroadcastsInDim S64x8x256 (![0, 1, 2] : Fin 3 → Fin S64x8x256.rank)
  bcast_S64_S64x1_0 : S64.BroadcastsInDim S64x1 (![0] : Fin 1 → Fin S64x1.rank)
  bcast_S64x1_S64x8_0_1 : S64x1.BroadcastsInDim S64x8 (![0, 1] : Fin 2 → Fin S64x8.rank)
  bcast_S_S4096x64x256 : S_.BroadcastsInDim S4096x64x256 (![] : Fin 0 → Fin S4096x64x256.rank)
  concatenates_S64x8x1_S64x8x1_S64x8x2_d2 : Shape.Concatenates [S64x8x1, S64x8x1] S64x8x2 2
  gather_S4096x256_S64x8x1_S64x8x256_2_0_n_n_0_2_1256_wf : GatherDims.WF S4096x256 S64x8x1 S64x8x256 [2] [0] [] [0] [] 2 ![1, 256]
  scatter_S4096x64x256_S64x8x2_S64x8x256_2_01_01_2_wf : ScatterDims.WF S4096x64x256 S64x8x2 S64x8x256 [2] [0, 1] [0, 1] 2

variable [Facts₀]

def gather_S4096x256_S64x8x1_S64x8x256_2_0_n_n_0_2_1256 : GatherDims S4096x256 S64x8x1 S64x8x256 where
  offsetDims := [2]
  collapsedSliceDims := [0]
  operandBatchingDims := []
  startIndicesBatchingDims := []
  startIndexMap := [0]
  indexVectorDim := 2
  sliceSizes := ![1, 256]
  wf := gather_S4096x256_S64x8x1_S64x8x256_2_0_n_n_0_2_1256_wf
def scatter_S4096x64x256_S64x8x2_S64x8x256_2_01_01_2 : ScatterDims S4096x64x256 S64x8x2 S64x8x256 where
  updateWindowDims := [2]
  insertedWindowDims := [0, 1]
  scatterDimsToOperandDims := [0, 1]
  indexVectorDim := 2
  wf := scatter_S4096x64x256_S64x8x2_S64x8x256_2_01_01_2_wf

class Facts : Prop extends Facts₀ where

variable [Facts]
-- ==== Proof.LibOneAxisDot.lean ====
/-
  A matrix product that contracts ONE axis, read at one output index, at the extended reals.

  Whatever the dimension numbers are (which axis of each operand is contracted, in which order the free axes
  appear in the result), once the contraction has a single axis of extent K the product's entry at an output
  index j is a sum over k < K of a left entry times a right entry: the left operand read at the index the
  dimension numbers assign to (j, k), the right operand likewise. The two families of operand indices are
  parameters here; each concrete product supplies them (for x · wᵀ they are (r, k) and (c, k), for x · w they
  are (r, k) and (k, c)). No finiteness is asked of any entry: only the index set of the sum is renamed.
-/
import Idealize.ShloMosaic.PureOps.Ideal.Laws
import Idealize.ShloMosaic.Lib.ValueIdx

noncomputable section

open scoped BigOperators

namespace Cert.Lib.OneAxisDot

open Idealize.ShloMosaic Idealize.ShloMosaic.ValueIdx

/-- The contraction's sum, indexed by the dimension numbers' own one-axis contraction index, is the sum over
    k < K of l(li k) · r(ri k), when li k and ri k are the operand indices at the k-th contraction index. -/
theorem contraction_sum_at {sl sr so : Shape} (d : DotDims sl sr so) (K : Nat) (hr : d.contr.rank = 1)
    (hs : d.contr.size ⟨0, by omega⟩ = K) (l : sl.Idx → EReal) (r : sr.Idx → EReal) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    ∑ q : d.contr.Idx, l (d.lhsIdx j q) * r (d.rhsIdx j q) = ∑ k : Fin K, l (li k) * r (ri k) := by
  rw [← Equiv.sum_comp (contrEquiv1 d K hr hs).symm]
  exact Finset.sum_congr rfl fun k _ => by rw [hl k, hrr k]

/-- A matrix unit's product accumulated into the zero matrix, at output index j: the zero adds nothing, and the
    rest is the contraction's sum. -/
theorem matmul_zero_apply_at {sl sr so : Shape} {φ₁ φ₂ : FTy} (d : DotDims sl sr so) (K : Nat) (hr : d.contr.rank = 1)
    (hs : d.contr.size ⟨0, by omega⟩ = K) (prec : Option ContractPrecision)
    (l : FVec Ideal sl φ₁) (r : FVec Ideal sr φ₂) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    matmul d prec l r (constant so .f32 0x00000000#32) j = ∑ k : Fin K, l (li k) * r (ri k) :=
  (Ideal.matmul_constant_zero_apply d prec l r j).trans (contraction_sum_at d K hr hs l r j li ri hl hrr)

/-- The host's dot_general at output index j: the same sum, with no accumulator. -/
theorem dotGeneral_apply_at {sl sr so : Shape} {φ₁ φ₂ : FTy} (d : DotDims sl sr so) (K : Nat) (hr : d.contr.rank = 1)
    (hs : d.contr.size ⟨0, by omega⟩ = K) (prec : Option ContractPrecision)
    (l : FVec Ideal sl φ₁) (r : FVec Ideal sr φ₂) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    Host.dotGeneral d prec l r j = ∑ k : Fin K, l (li k) * r (ri k) :=
  (Ideal.dotGeneral_apply d prec .single l r j).trans (contraction_sum_at d K hr hs l r j li ri hl hrr)

end Cert.Lib.OneAxisDot

end
-- ==== Proof.LibSignedIndex.lean ====
/-
  32-bit indices read as signed integers: the facts a program that indexes with `x[idx]` or `x.at[idx]` leaves to prove.

  Such a program first wraps a negative index by adding the axis extent (select (idx < 0) (idx + extent) idx), and
  often masks an index to a range before using it (select (0 ≤ idx ∧ idx < bound) idx 0). Here, for 32-bit words:
    * a small natural number n (n < 2³¹) as a 32-bit word reads back, signed, as n; and a word equals it exactly when
      the word's signed reading is n;
    * the wrap leaves an index that is not negative alone, whatever the extent;
    * an index masked to [0, bound) — kept when in range, replaced by 0 otherwise — is never negative, whatever the bound.
-/
import Idealize.ShloMosaic.PureOps.Ideal

namespace Cert.Lib.SignedIndex

open Idealize.ShloMosaic

/-- A word is the natural number n < 2³¹ exactly when its signed reading is n. -/
theorem ofNat_eq_iff_toInt (v : BitVec 32) (n : Nat) (hn : n < 2147483648) : (BitVec.ofNat 32 n = v) ↔ v.toInt = (n : Int) := by
  have hc := BitVec.toInt_eq_toNat_cond v
  have hlt := v.isLt
  constructor
  · rintro rfl
    rw [hc, BitVec.toNat_ofNat, Nat.mod_eq_of_lt (by omega)]
    rw [if_pos (by omega)]
  · intro h
    apply BitVec.eq_of_toNat_eq
    rw [BitVec.toNat_ofNat, Nat.mod_eq_of_lt (by omega)]
    split_ifs at hc <;> omega

/-- The natural number n < 2³¹ as a word reads back, signed, as n. -/
theorem toInt_ofNat_small (n : Nat) (hn : n < 2147483648) : (BitVec.ofNat 32 n).toInt = (n : Int) :=
  (ofNat_eq_iff_toInt _ n hn).1 rfl

/-- Wrapping a negative index by the extent c does nothing to an index that is not negative. -/
theorem wrap_of_nonneg (v c : BitVec 32) (h : 0 ≤ v.toInt) :
    Scalar.select (IntOp.cmpi .slt v 0#32) (IntOp.addi v c) v = v := by
  have : IntOp.cmpi .slt v 0#32 = 0#1 := by
    simp only [IntOp.cmpi, BitVec.slt]
    have : ¬ v.toInt < 0 := by omega
    simp [this]
  rw [this]; rfl

/-- An index masked to [0, c) — itself when 0 ≤ v and v < c (signed), else 0 — is never negative. -/
theorem masked_nonneg (v c : BitVec 32) :
    0 ≤ (Scalar.select (IntOp.andi (IntOp.cmpi .sge v 0#32) (IntOp.cmpi .slt v c)) v 0#32).toInt := by
  unfold Scalar.select
  split
  · rename_i h
    simp only [IntOp.andi, IntOp.cmpi, BitVec.sle, BitVec.slt] at h
    by_cases h1 : 0 ≤ v.toInt
    · exact h1
    · simp [h1] at h
  · decide

end Cert.Lib.SignedIndex
-- ==== Proof.PeakMath.lean ====
/-
  The arithmetic shared by the two programs, with no program in sight.

  Both programs add, to x[s, b, :] + pe[s, 0, :], the embedding rows of the peaks of batch b that sit at sequence
  position s. One writes "sits at s" as a 0/1 factor and contracts over the eight peaks of the batch; the other
  scatters every (batch, peak) row to the position its index names and lets rows that land together add up. Here:
    * the 0/1 factor `hot v n` of a 32-bit index v and a position n (1 when v, read as a signed integer, is n);
    * the index kept by the range mask (the value itself when 0 ≤ v < 4096, else 0), which is never negative — so
      wrapping a negative index by adding the extent leaves it alone (both facts from Proof/LibSignedIndex.lean);
    * the integer comparison a kernel makes, position = t·64 + r against the index, converted to a float, is `hot`;
    * for the accumulating scatter of [64, 8, 256] rows into a [4096, 64, 256] array through index pairs
      (position, batch): the update (b', p, d') lands at (s, b, d) exactly when the first index of (b', p) is s, the
      second is b, and d' = d; so when the second index of (b', p) is b' itself, the sum of the updates landing at
      (s, b, d) is the sum over the eight peaks p of batch b of `hot` · row — every term a product with 0 or 1,
      which needs no finiteness.
-/
import Idealize.ShloMosaic.PureOps.Ideal
import Idealize.ShloMosaic.Lib.ValueIdx
import proofs.«156840_j69827578298900_2_alg».proof.Proof.LibSignedIndex

noncomputable section

open scoped BigOperators

namespace Cert.Peak

open Idealize.ShloMosaic Idealize.ShloMosaic.ValueIdx Cert.Lib.SignedIndex

/-- 1 when the index v, read as a signed integer, is the position n; else 0. -/
def hot (v : BitVec 32) (n : Nat) : EReal := if v.toInt = (n : Int) then 1 else 0

theorem hot_mul (v : BitVec 32) (n : Nat) (e : EReal) : hot v n * e = if v.toInt = (n : Int) then e else 0 := by
  unfold hot; split <;> simp

/-! ## Integer facts -/

/-- The index a range mask keeps: v when 0 ≤ v < 4096 (signed), else 0. -/
def kept (v : BitVec 32) : BitVec 32 :=
  Scalar.select (IntOp.andi (IntOp.cmpi .sge v 0#32) (IntOp.cmpi .slt v 4096#32)) v 0#32

theorem kept_nonneg (v : BitVec 32) : 0 ≤ (kept v).toInt := masked_nonneg v 4096#32

/-- The comparison of the position t·64 + r with an index, widened to 32 bits and converted to a float. -/
theorem compare_is_hot (t r : Fin 64) (v : BitVec 32) :
    ((((IntOp.cmpi .eq (IntOp.addi (Scalar.muli (BitVec.ofNat 32 t.val) 64#32) (BitVec.ofNat 32 r.val)) v).setWidth 32).toInt : ℝ) : EReal)
      = hot v (t.val * 64 + r.val) := by
  have ha : IntOp.addi (Scalar.muli (BitVec.ofNat 32 t.val) 64#32) (BitVec.ofNat 32 r.val) = BitVec.ofNat 32 (t.val * 64 + r.val) := by
    simp [IntOp.addi, Scalar.muli, IntOp.muli, BitVec.ofNat_add, BitVec.ofNat_mul]
  rw [ha]
  have hn : t.val * 64 + r.val < 4096 := by have := t.isLt; have := r.isLt; omega
  have hc : IntOp.cmpi .eq (BitVec.ofNat 32 (t.val * 64 + r.val)) v
      = if BitVec.ofNat 32 (t.val * 64 + r.val) = v then 1#1 else 0#1 := by
    unfold IntOp.cmpi
    by_cases e : BitVec.ofNat 32 (t.val * 64 + r.val) = v
    · rw [if_pos e, e]; simp
    · rw [if_neg e, show (BitVec.ofNat 32 (t.val * 64 + r.val) == v) = false from beq_eq_false_iff_ne.mpr e]; rfl
  have h1 : ((1#1 : BitVec 1).setWidth 32).toInt = 1 := by decide
  have h0 : ((0#1 : BitVec 1).setWidth 32).toInt = 0 := by decide
  rw [hc]
  unfold hot
  by_cases h : v.toInt = ((t.val * 64 + r.val : Nat) : Int)
  · have e : BitVec.ofNat 32 (t.val * 64 + r.val) = v := (ofNat_eq_iff_toInt v _ (by omega)).2 h
    rw [if_pos h, if_pos e, h1]; simp
  · have e : ¬ BitVec.ofNat 32 (t.val * 64 + r.val) = v := fun e => h ((ofNat_eq_iff_toInt v _ (by omega)).1 e)
    rw [if_neg h, if_neg e, h0]; simp

/-! ## The accumulating scatter through (position, batch) index pairs -/

abbrev SX : Shape := ⟨3, ![4096, 64, 256]⟩
abbrev SI : Shape := ⟨3, ![64, 8, 2]⟩
abbrev SU : Shape := ⟨3, ![64, 8, 256]⟩

/-- The scatter's dimension numbers: updates [64, 8, 256] whose last axis is the window, index pairs on the last axis
    of [64, 8, 2] naming operand axes 0 and 1, both inserted. -/
def sd (wf : ScatterDims.WF SX SI SU [2] [0, 1] [0, 1] 2) : ScatterDims SX SI SU := ⟨[2], [0, 1], [0, 1], 2, wf⟩

variable (wf : ScatterDims.WF SX SI SU [2] [0, 1] [0, 1] 2)

theorem siIdx0 (b : Fin 64) (p : Fin 8) (d : Fin 256) :
    (sd wf).siIdx (ix3 b p d) ⟨0, (by show 0 < 2; decide)⟩ = ix3 b p (0 : Fin 2) := by
  funext a
  match a with
  | ⟨0, _⟩ => rfl
  | ⟨1, _⟩ => rfl
  | ⟨2, _⟩ => rfl

theorem siIdx1 (b : Fin 64) (p : Fin 8) (d : Fin 256) :
    (sd wf).siIdx (ix3 b p d) ⟨1, (by show 1 < 2; decide)⟩ = ix3 b p (1 : Fin 2) := by
  funext a
  match a with
  | ⟨0, _⟩ => rfl
  | ⟨1, _⟩ => rfl
  | ⟨2, _⟩ => rfl

theorem start0 {w : Nat} (I : IVec SI w) (b : Fin 64) (p : Fin 8) (d : Fin 256) :
    (sd wf).start (ix3 b p d) I 0 = (I (ix3 b p (0 : Fin 2))).toInt := by
  unfold ScatterDims.start
  rw [dif_pos (show (0 : Fin SX.rank) ∈ (sd wf).scatterDimsToOperandDims from (by show (0 : Fin 3) ∈ ([0, 1] : List (Fin 3)); decide))]
  exact congrArg (fun k => (I k).toInt) (siIdx0 wf b p d)

theorem start1 {w : Nat} (I : IVec SI w) (b : Fin 64) (p : Fin 8) (d : Fin 256) :
    (sd wf).start (ix3 b p d) I 1 = (I (ix3 b p (1 : Fin 2))).toInt := by
  unfold ScatterDims.start
  rw [dif_pos (show (1 : Fin SX.rank) ∈ (sd wf).scatterDimsToOperandDims from (by show (1 : Fin 3) ∈ ([0, 1] : List (Fin 3)); decide))]
  exact congrArg (fun k => (I k).toInt) (siIdx1 wf b p d)

theorem start2 {w : Nat} (I : IVec SI w) (b : Fin 64) (p : Fin 8) (d : Fin 256) :
    (sd wf).start (ix3 b p d) I 2 = 0 := by
  unfold ScatterDims.start
  rw [dif_neg (show ¬ (2 : Fin SX.rank) ∈ (sd wf).scatterDimsToOperandDims from (by show ¬ (2 : Fin 3) ∈ ([0, 1] : List (Fin 3)); decide))]

theorem window0 (b : Fin 64) (p : Fin 8) (d : Fin 256) : (sd wf).window (ix3 b p d) 0 = 0 := by
  unfold ScatterDims.window
  rw [dif_neg (show ¬ (0 : Fin SX.rank) ∈ (sd wf).sKept from (by show ¬ (0 : Fin 3) ∈ SX.kept ([0, 1] : List (Fin 3)); decide))]
theorem window1 (b : Fin 64) (p : Fin 8) (d : Fin 256) : (sd wf).window (ix3 b p d) 1 = 0 := by
  unfold ScatterDims.window
  rw [dif_neg (show ¬ (1 : Fin SX.rank) ∈ (sd wf).sKept from (by show ¬ (1 : Fin 3) ∈ SX.kept ([0, 1] : List (Fin 3)); decide))]
theorem window2 (b : Fin 64) (p : Fin 8) (d : Fin 256) : (sd wf).window (ix3 b p d) 2 = d.val := by
  unfold ScatterDims.window
  rw [dif_pos (show (2 : Fin SX.rank) ∈ (sd wf).sKept from (by show (2 : Fin 3) ∈ SX.kept ([0, 1] : List (Fin 3)); decide))]
  rfl

/-- Where the update (b', p, d') lands: at (s, b, d) exactly when its first index is s, its second is b, and d' = d. -/
theorem lands_iff (I : IVec SI 32) (b' : Fin 64) (p : Fin 8) (d' : Fin 256) (s : Fin 4096) (b : Fin 64) (d : Fin 256) :
    (sd wf).resultIdx? (ix3 b' p d') I = some (ix3 s b d)
      ↔ (I (ix3 b' p (0 : Fin 2))).toInt = (s.val : Int) ∧ (I (ix3 b' p (1 : Fin 2))).toInt = (b.val : Int) ∧ d' = d := by
  have g0 : ∀ a : Fin SX.rank, a.val = 0 →
      (sd wf).start (ix3 b' p d') I a + ((sd wf).window (ix3 b' p d') a : Nat) = (I (ix3 b' p (0 : Fin 2))).toInt := by
    intro a ha; obtain rfl : a = 0 := Fin.ext ha
    rw [start0, window0]; simp
  have g1 : ∀ a : Fin SX.rank, a.val = 1 →
      (sd wf).start (ix3 b' p d') I a + ((sd wf).window (ix3 b' p d') a : Nat) = (I (ix3 b' p (1 : Fin 2))).toInt := by
    intro a ha; obtain rfl : a = 1 := Fin.ext ha
    rw [start1, window1]; simp
  have g2 : ∀ a : Fin SX.rank, a.val = 2 →
      (sd wf).start (ix3 b' p d') I a + ((sd wf).window (ix3 b' p d') a : Nat) = (d'.val : Int) := by
    intro a ha; obtain rfl : a = 2 := Fin.ext ha
    rw [start2, window2]; simp
  have e0 := g0 0 rfl
  have e1 := g1 1 rfl
  have e2 := g2 2 rfl
  unfold ScatterDims.resultIdx?
  constructor
  · intro h
    split at h
    · rename_i hall
      have hf := Option.some.inj h
      have h0 := congrArg (fun f => (f 0).val) hf
      have h1 := congrArg (fun f => (f 1).val) hf
      have h2 := congrArg (fun f => (f 2).val) hf
      have a0 := hall 0
      have a1 := hall 1
      simp only at h0 h1 h2
      rw [e0] at h0 a0
      rw [e1] at h1 a1
      rw [e2] at h2
      have s0 : (ix3 s b d (0 : Fin 3)).val = s.val := rfl
      have s1 : (ix3 s b d (1 : Fin 3)).val = b.val := rfl
      have s2 : (ix3 s b d (2 : Fin 3)).val = d.val := rfl
      rw [s0] at h0; rw [s1] at h1; rw [s2] at h2
      refine ⟨by omega, by omega, Fin.ext (by omega)⟩
    · exact absurd h (by simp)
  · rintro ⟨h0, h1, rfl⟩
    have hall : ∀ a : Fin SX.rank, 0 ≤ (sd wf).start (ix3 b' p d') I a + ((sd wf).window (ix3 b' p d') a : Nat)
        ∧ (sd wf).start (ix3 b' p d') I a + ((sd wf).window (ix3 b' p d') a : Nat) < (SX.size a : Nat) := by
      intro a
      match a with
      | ⟨0, hh⟩ => rw [g0 ⟨0, hh⟩ rfl, h0]; have := s.isLt; exact ⟨by omega, by show (s.val : Int) < ((4096 : Nat) : Int); omega⟩
      | ⟨1, hh⟩ => rw [g1 ⟨1, hh⟩ rfl, h1]; have := b.isLt; exact ⟨by omega, by show (b.val : Int) < ((64 : Nat) : Int); omega⟩
      | ⟨2, hh⟩ => rw [g2 ⟨2, hh⟩ rfl]; have := d'.isLt; exact ⟨by omega, by show (d'.val : Int) < ((256 : Nat) : Int); omega⟩
    rw [dif_pos hall]
    refine congrArg some (funext fun a => Fin.ext ?_)
    match a with
    | ⟨0, hh⟩ => show ((sd wf).start (ix3 b' p d') I ⟨0, hh⟩ + ((sd wf).window (ix3 b' p d') ⟨0, hh⟩ : Nat)).toNat = s.val; rw [g0 ⟨0, hh⟩ rfl, h0]; simp
    | ⟨1, hh⟩ => show ((sd wf).start (ix3 b' p d') I ⟨1, hh⟩ + ((sd wf).window (ix3 b' p d') ⟨1, hh⟩ : Nat)).toNat = b.val; rw [g1 ⟨1, hh⟩ rfl, h1]; simp
    | ⟨2, hh⟩ => show ((sd wf).start (ix3 b' p d') I ⟨2, hh⟩ + ((sd wf).window (ix3 b' p d') ⟨2, hh⟩ : Nat)).toNat = d'.val; rw [g2 ⟨2, hh⟩ rfl]; simp

/-- The accumulating scatter at (s, b, d), when the second index of every pair (b', p) is b' itself: the operand's entry
    plus, over the eight peaks p of batch b, the row entry (b, p, d) when the first index of (b, p) is s. -/
theorem scatterAdd_at (x : SX.Idx → EReal) (I : IVec SI 32) (u : SU.Idx → EReal)
    (hI : ∀ (b' : Fin 64) (p : Fin 8), (I (ix3 b' p (1 : Fin 2))).toInt = (b'.val : Int))
    (s : Fin 4096) (b : Fin 64) (d : Fin 256) :
    Ideal.hostScatterAdd (sd wf) x I u (ix3 s b d)
      = x (ix3 s b d) + ∑ p : Fin 8, hot (I (ix3 b p (0 : Fin 2))) s.val * u (ix3 b p d) := by
  unfold Ideal.hostScatterAdd
  refine congrArg (fun z => x (ix3 s b d) + z) ?_
  have hinj : Function.Injective (fun p : Fin 8 => (ix3 b p d : SU.Idx)) := fun p q h => by
    have := congrFun h (1 : Fin 3); exact this
  have hset : Finset.univ.filter (fun j : SU.Idx => (sd wf).resultIdx? j I = some (ix3 s b d))
      = (Finset.univ.filter (fun p : Fin 8 => (I (ix3 b p (0 : Fin 2))).toInt = (s.val : Int))).map ⟨_, hinj⟩ := by
    ext j
    obtain ⟨b', p, d', rfl⟩ : ∃ (b' : Fin 64) (p : Fin 8) (d' : Fin 256), j = ix3 b' p d' := ⟨j 0, j 1, j 2, eq_ix3 j⟩
    simp only [Finset.mem_filter, Finset.mem_univ, true_and, Finset.mem_map, Function.Embedding.coeFn_mk]
    rw [lands_iff]
    constructor
    · rintro ⟨h0, h1, rfl⟩
      have hb : b' = b := Fin.ext (by have := hI b' p; omega)
      subst hb
      exact ⟨p, h0, rfl⟩
    · rintro ⟨q, hq, he⟩
      have hb : b = b' := congrFun he (0 : Fin 3)
      have hp : q = p := congrFun he (1 : Fin 3)
      have hd : d = d' := congrFun he (2 : Fin 3)
      subst hb hp hd
      exact ⟨hq, hI b q, rfl⟩
  rw [hset, Finset.sum_map, Finset.sum_filter]
  refine Finset.sum_congr rfl fun p _ => ?_
  rw [hot_mul]
  rfl

/-! ## The result, as one function of the four arrays -/

abbrev SP : Shape := ⟨3, ![4096, 1, 256]⟩
abbrev SK : Shape := ⟨2, ![64, 8]⟩

/-- THE RESULT at (s, b, d): x[s, b, d] + pe[s, 0, d], plus the embedding row entry (b, p, d) of every peak p of batch b
    whose index is s. -/
def result (x : SX.Idx → EReal) (pe : SP.Idx → EReal) (idx : SK.Idx → BitVec 32) (emb : SU.Idx → EReal) : SX.Idx → EReal :=
  fun i => (x i + pe (ix3 (i 0) (0 : Fin 1) (i 2))) + ∑ p : Fin 8, hot (idx (ix2 (i 1) p)) (i 0).val * emb (ix3 (i 1) p (i 2))

theorem result_at (x : SX.Idx → EReal) (pe : SP.Idx → EReal) (idx : SK.Idx → BitVec 32) (emb : SU.Idx → EReal)
    (s : Fin 4096) (b : Fin 64) (d : Fin 256) :
    result x pe idx emb (ix3 s b d)
      = (x (ix3 s b d) + pe (ix3 s (0 : Fin 1) d)) + ∑ p : Fin 8, hot (idx (ix2 b p)) s.val * emb (ix3 b p d) := rfl

end Cert.Peak

end
-- ==== Proof.KernelPayload.lean ====
/-
  What the kernel body stores, entry by entry, at the extended reals.

  At grid position t the body holds a block of 64 sequence rows. Its stored value at (r, b, d) — row r of the block,
  batch b, feature d — is x + pe (the positional row broadcast over the batch) plus the (b, r, d) entry of a batched
  product, read back with its first two axes exchanged. The product contracts the eight peaks p of batch b: the left
  factor at (b, r, p) is the comparison of the row's sequence position t·64 + r with the peak's index, as a float,
  which is the 0/1 factor `hot`; the right factor is the embedding row entry (b, p, d). Rounding to a narrower float
  format is the identity at the extended reals, and the product starts from the zero matrix, which adds nothing.
-/
import proofs.«156840_j69827578298900_2_alg».proof.Proof.Gen.KernelIdeal.Skeleton
import proofs.«156840_j69827578298900_2_alg».proof.Proof.LibOneAxisDot
import proofs.«156840_j69827578298900_2_alg».proof.Proof.PeakMath
import Idealize.ShloMosaic.Lib.Pipeline.Value
import Idealize.ShloMosaic.Lib.ValueIdx

noncomputable section

open scoped BigOperators

namespace Cert.KernelIdeal.PayloadAt

open Cert.KernelIdeal Cert.KernelIdeal.Gen Idealize.ShloMosaic Idealize.ShloMosaic.ValueIdx Cert.Peak

/-- The batched product's dimension numbers: batch axis 0 on both sides, the left factor's axis 2 contracted with the
    right factor's axis 1. -/
abbrev dotR := dot_S64x64x8_S64x8x256_S64x64x256_2_1_1_2_0_0

theorem lhs0 (j : S64x64x256.Idx) (q : dotR.contr.Idx) : (dotR.lhsIdx j q 0).val = (j 0).val := by
  unfold DotDims.lhsIdx
  rw [dif_pos (show (0 : Fin S64x64x8.rank) ∈ dotR.lhsBatch by decide)]
  rfl
theorem lhs1 (j : S64x64x256.Idx) (q : dotR.contr.Idx) : (dotR.lhsIdx j q 1).val = (j 1).val := by
  unfold DotDims.lhsIdx
  rw [dif_neg (show ¬(1 : Fin S64x64x8.rank) ∈ dotR.lhsBatch by decide), dif_pos (show (1 : Fin S64x64x8.rank) ∈ dotR.lhsNonContracting by decide)]
  rfl
theorem lhs2 (j : S64x64x256.Idx) (q : dotR.contr.Idx) : (dotR.lhsIdx j q 2).val = (q ⟨0, by decide⟩).val :=
  dotR.lhsIdx_val_of_single rfl j q
theorem rhs0 (j : S64x64x256.Idx) (q : dotR.contr.Idx) : (dotR.rhsIdx j q 0).val = (j 0).val := by
  unfold DotDims.rhsIdx
  rw [dif_pos (show (0 : Fin S64x8x256.rank) ∈ dotR.rhsBatch by decide)]
  rfl
theorem rhs1 (j : S64x64x256.Idx) (q : dotR.contr.Idx) : (dotR.rhsIdx j q 1).val = (q ⟨0, by decide⟩).val :=
  dotR.rhsIdx_val_of_single rfl j q
theorem rhs2 (j : S64x64x256.Idx) (q : dotR.contr.Idx) : (dotR.rhsIdx j q 2).val = (j 2).val := by
  unfold DotDims.rhsIdx
  rw [dif_neg (show ¬(2 : Fin S64x8x256.rank) ∈ dotR.rhsBatch by decide), dif_pos (show (2 : Fin S64x8x256.rank) ∈ dotR.rhsNonContracting by decide)]
  rfl

/-- The batched product into the zero matrix at (b, r, d): the sum over the eight peaks. -/
theorem matmul_at (l : FVec Ideal S64x64x8 .bf16) (r : FVec Ideal S64x8x256 .bf16) (b sl : Fin 64) (d : Fin 256) :
    matmul dotR none l r (constant S64x64x256 .f32 0x00000000#32) (ix3 b sl d)
      = ∑ p : Fin 8, l (ix3 b sl p) * r (ix3 b p d) := by
  refine Cert.Lib.OneAxisDot.matmul_zero_apply_at dotR 8 rfl rfl none l r (ix3 b sl d) (fun p => ix3 b sl p) (fun p => ix3 b p d) ?_ ?_
  · intro k
    have hk := contrEquiv1_symm_val dotR 8 rfl rfl k
    funext a; apply Fin.ext
    match a with
    | ⟨0, _⟩ => exact lhs0 _ _
    | ⟨1, _⟩ => exact lhs1 _ _
    | ⟨2, _⟩ => exact (lhs2 _ _).trans hk
  · intro k
    have hk := contrEquiv1_symm_val dotR 8 rfl rfl k
    funext a; apply Fin.ext
    match a with
    | ⟨0, _⟩ => exact rhs0 _ _
    | ⟨1, _⟩ => exact (rhs1 _ _).trans hk
    | ⟨2, _⟩ => exact rhs2 _ _

/-- The peak indices [64, 8], viewed [64, 1, 8] and repeated along the 64 rows, read at (b, r, p): the index of (b, p). -/
theorem indices_at (v4 : Vec Ideal S64x8 .i32) (b r : Fin 64) (p : Fin 8) :
    broadcastTo S64x64x8 (shapeCast S64x1x8 (shapeCast S64x8 v4 shapeCasts_S64x8_S64x8) shapeCasts_S64x8_S64x1x8)
      broadcasts_S64x1x8_S64x64x8 (ix3 b r p) = v4 (ix2 b p) := by
  rw [shapeCast_self]
  refine (broadcastTo_apply _ broadcasts_S64x1x8_S64x64x8 (ix3 b r p) (ix3 b (0 : Fin 1) p) (fun a => ?_)).trans ?_
  · match a with
    | ⟨0, _⟩ => show b.val = if (64 : Nat) = 1 then 0 else b.val; rw [if_neg (by decide)]
    | ⟨1, _⟩ => show 0 = if (1 : Nat) = 1 then 0 else r.val; rw [if_pos rfl]
    | ⟨2, _⟩ => show p.val = if (8 : Nat) = 1 then 0 else p.val; rw [if_neg (by decide)]
  · refine shapeCast_apply v4 shapeCasts_S64x8_S64x1x8 (ix3 b (0 : Fin 1) p) (ix2 b p) ?_
    rw [Shape.rowMajor_val_two, Shape.rowMajor_val_three]
    show b.val * 8 + p.val = (b.val * 1 + 0) * 8 + p.val
    omega

/-- The left factor of the product at (b, r, p): 1 when the peak (b, p) sits at sequence position t·64 + r, else 0. -/
theorem onehot_at (i : grid0.Coords) (v4 : Vec Ideal S64x8 .i32) (b r : Fin 64) (p : Fin 8) :
    (truncf .bf16 (sitofp (F := Ideal) .f32 (extui 32 (cmpi .eq
        (addi (broadcast S64x64x8 (Scalar.muli (BitVec.ofNat 32 (i 0).val) 64#32)) (iota .tc S64x64x8 32 [1] iota_S64x64x8_d1_w32))
        (broadcastTo S64x64x8 (shapeCast S64x1x8 (shapeCast S64x8 v4 shapeCasts_S64x8_S64x8) shapeCasts_S64x8_S64x1x8) broadcasts_S64x1x8_S64x64x8))
        natLt_1_32)) bitsLt_bf16_f32 : FVec Ideal S64x64x8 .bf16) (ix3 b r p)
      = hot (v4 (ix2 b p)) ((i 0).val * 64 + r.val) := by
  have e1 : iota .tc S64x64x8 32 [1] iota_S64x64x8_d1_w32 (ix3 b r p) = BitVec.ofNat 32 r.val :=
    iota_single_apply .tc S64x64x8 32 1 iota_S64x64x8_d1_w32 (ix3 b r p)
  have e7 := indices_at v4 b r p
  show ((((IntOp.cmpi .eq (IntOp.addi (Scalar.muli (BitVec.ofNat 32 (i 0).val) 64#32) (iota .tc S64x64x8 32 [1] iota_S64x64x8_d1_w32 (ix3 b r p)))
      (broadcastTo S64x64x8 (shapeCast S64x1x8 (shapeCast S64x8 v4 shapeCasts_S64x8_S64x8) shapeCasts_S64x8_S64x1x8) broadcasts_S64x1x8_S64x64x8 (ix3 b r p))).setWidth 32).toInt : ℝ) : EReal) = _
  rw [e1, e7]
  exact compare_is_hot (i 0) r (v4 (ix2 b p))

/-- THE STORED VALUE at (r, b, d) of the block at grid position t: x + pe plus, over the eight peaks p of batch b, the
    embedding row entry (b, p, d) when the peak sits at sequence position t·64 + r. -/
theorem pay_at (i : grid0.Coords) (v4 : Vec Ideal S64x8 .i32) (v12 : Vec Ideal S64x8x256 .f32)
    (v17 : Vec Ideal S64x64x256 .f32) (v18 : Vec Ideal S64x1x256 .f32) (r b : Fin 64) (d : Fin 256) :
    k0_pay1 (F := Ideal) i v4 v12 v17 v18 (ix3 r b d)
      = (v17 (ix3 r b d) + v18 (ix3 r (0 : Fin 1) d))
        + ∑ p : Fin 8, hot (v4 (ix2 b p)) ((i 0).val * 64 + r.val) * v12 (ix3 b p d) := by
  unfold k0_pay1
  dsimp only
  refine (addf_apply _ _ _).trans ?_
  refine congrArg₂ (· + ·) ((addf_apply _ _ _).trans (congrArg (v17 (ix3 r b d) + ·) ?_)) ?_
  · refine broadcastTo_apply v18 broadcasts_S64x1x256_S64x64x256 (ix3 r b d) (ix3 r (0 : Fin 1) d) (fun a => ?_)
    match a with
    | ⟨0, _⟩ => show r.val = if (64 : Nat) = 1 then 0 else r.val; rw [if_neg (by decide)]
    | ⟨1, _⟩ => show 0 = if (1 : Nat) = 1 then 0 else b.val; rw [if_pos rfl]
    | ⟨2, _⟩ => show d.val = if (256 : Nat) = 1 then 0 else d.val; rw [if_neg (by decide)]
  · refine (transpose_apply [1, 0, 2] _ transposes_S64x64x256_p1_0_2_S64x64x256 (ix3 r b d) (ix3 b r d) (fun a => ?_)).trans ?_
    · match a with
      | ⟨0, _⟩ => rfl
      | ⟨1, _⟩ => rfl
      | ⟨2, _⟩ => rfl
    · refine (matmul_at _ _ b r d).trans (Finset.sum_congr rfl fun p _ => ?_)
      refine congrArg₂ (· * ·) (onehot_at i v4 b r p) ?_
      show (shapeCast S64x8x256 v12 shapeCasts_S64x8x256_S64x8x256) (ix3 b p d) = v12 (ix3 b p d)
      rw [shapeCast_self]

end Cert.KernelIdeal.PayloadAt

end
-- ==== Proof.KernelValue.lean ====
/-
  What the kernel's result array holds after the run, as one function of the argument arrays.

  The grid has 64 positions; position t stages rows [64 t, 64 t + 64) of x and of pe, the whole index array and the
  whole array of embedding rows, and writes back rows [64 t, 64 t + 64) of the result. So the entry (r, b, d) of the
  block written at t is the entry (64 t + r, b, d) of ONE whole-array function — x + pe plus the embedding rows of the
  peaks of batch b whose index is 64 t + r —, the 64 blocks tile the array, and the array ends holding that function.
  The index array and the embedding rows are what the host operations before the kernel computed from the arguments:
  the masked peak positions, and the gathered table rows times the mask.
-/
import proofs.«156840_j69827578298900_2_alg».proof.Proof.FrameKernelIdeal
import proofs.«156840_j69827578298900_2_alg».proof.Proof.KernelPayload
import proofs.«156840_j69827578298900_2_alg».proof.Proof.PeakMath
import Idealize.ShloMosaic.Lib.Pipeline.Value
import Idealize.ShloMosaic.Lib.StableHlo.Run
import Idealize.ShloMosaic.Lib.ValueIdx

noncomputable section

open scoped BigOperators

namespace Cert.KernelIdeal.PeakValue

open Cert.KernelIdeal Cert.KernelIdeal.Gen Cert.KernelIdeal.GenP Idealize.ShloMosaic Idealize.ShloMosaic.TcCoe Idealize.SL.Sem
open Idealize.ShloMosaic.ValueIdx Cert.Peak Idealize.ShloMosaic.StableHlo
open Idealize.ShloMosaic.Pipeline (Dat)

/-! ## What the host prepared -/

/-- The masked peak positions: the position itself where it is in [0, 4096), else 0. -/
def idxK (x1 : S64x8.Idx → BitVec 32) : S64x8.Idx → BitVec 32 :=
  select (andi (cmpi .sge x1 (broadcastInDim S64x8 ![] bcast_S_S64x8 (constantI S_ 32 0#32)))
      (cmpi .slt x1 (broadcastInDim S64x8 ![] bcast_S_S64x8 (constantI S_ 32 4096#32))))
    x1 (broadcastInDim S64x8 ![] bcast_S_S64x8 (id (constantI S_ 32 0#32)))

/-- The embedding rows: the table row each masked position names (a negative index wrapped by the table's extent), times
    the mask as a float. -/
def embK (x1 : S64x8.Idx → BitVec 32) (x3 : S4096x256.Idx → EReal) : S64x8x256.Idx → EReal :=
  mulf (F := Ideal)
    (Host.gather gather_S4096x256_S64x8x1_S64x8x256_2_0_n_n_0_2_1256 x3
      (broadcastInDim S64x8x1 ![0, 1] bcast_S64x8_S64x8x1_0_1
        (select (cmpi .slt (idxK x1) (broadcastInDim S64x8 ![] bcast_S_S64x8 (constantI S_ 32 0#32)))
          (addi (idxK x1) (broadcastInDim S64x8 ![] bcast_S_S64x8 (constantI S_ 32 4096#32))) (idxK x1))))
    (broadcastInDim S64x8x256 ![0, 1, 2] bcast_S64x8x1_S64x8x256_0_1_2
      (uitofp (F := Ideal) .f32 (broadcastInDim S64x8x1 ![0, 1] bcast_S64x8_S64x8x1_0_1
        (andi (cmpi .sge x1 (broadcastInDim S64x8 ![] bcast_S_S64x8 (constantI S_ 32 0#32)))
          (cmpi .slt x1 (broadcastInDim S64x8 ![] bcast_S_S64x8 (constantI S_ 32 4096#32)))))))

variable (m : (ℓ : Loc nD τ sig) → Buf (Elt Ideal) ℓ) (ρ : Dev nD → PrngReg)

/-- The index array the kernel is launched on is the masked peak positions. -/
theorem V_idx (c : Dev nD) :
    (V m c main_v5 : S64x8.Idx → BitVec 32) = idxK (m ((c : Thread nD τ).loc main_arg1)) := by
  dsimp only [GenP.V]
  simp only [hostOps0, hostOps0_1, hostOps0_2, List.flatten_cons, List.flatten_nil, List.append_nil, List.cons_append,
    List.nil_append]
  after_results
  rfl

set_option maxHeartbeats 2000000 in
/-- The embedding rows the kernel is launched on. -/
theorem V_emb (c : Dev nD) :
    (V m c main_v16 : S64x8x256.Idx → EReal)
      = embK (m ((c : Thread nD τ).loc main_arg1)) (m ((c : Thread nD τ).loc main_arg3)) := by
  dsimp only [GenP.V]
  simp only [hostOps0, hostOps0_1, hostOps0_2, List.flatten_cons, List.flatten_nil, List.append_nil, List.cons_append,
    List.nil_append]
  after_results_simp <;> rfl

/-! ## One block entry against the whole-array function -/

theorem hz3 : (![0, 0, 0] : Fin 3 → Nat) = fun _ => 0 := funext fun a => by fin_cases a <;> rfl
theorem hz2 : (![0, 0] : Fin 2 → Nat) = fun _ => 0 := funext fun a => by fin_cases a <;> rfl

/-- The stored value at block entry y of the block at grid position i is the whole-array function at the array index e,
    when e is y moved down by 64·i rows and the x and pe blocks are the corresponding rows of the arrays X and PE. -/
theorem block_entry (i : grid0.Coords) (x0 : Vec Ideal S64x64x256 .f32) (x1 : Vec Ideal S64x1x256 .f32)
    (x2 : Vec Ideal S64x8 .i32) (x3 : Vec Ideal S64x8x256 .f32)
    (X : S4096x64x256.Idx → EReal) (PE : S4096x1x256.Idx → EReal) (y : S64x64x256.Idx) (e : S4096x64x256.Idx)
    (he0 : (e 0).val = (i 0).val * 64 + (y 0).val) (he1 : (e 1).val = (y 1).val) (he2 : (e 2).val = (y 2).val)
    (hx : x0 y = X e) (hpe : x1 (ix3 (y 0) (0 : Fin 1) (y 2)) = PE (ix3 (e 0) (0 : Fin 1) (e 2))) :
    k0_pay1 (F := Ideal) i x2 x3 x0 x1 y = result X PE x2 x3 e := by
  obtain ⟨r, b, d, rfl⟩ : ∃ (r b : Fin 64) (d : Fin 256), y = ix3 r b d := ⟨y 0, y 1, y 2, eq_ix3 y⟩
  obtain ⟨s, b', d', rfl⟩ : ∃ (s : Fin 4096) (b' : Fin 64) (d' : Fin 256), e = ix3 s b' d' := ⟨e 0, e 1, e 2, eq_ix3 e⟩
  have hb : b' = b := Fin.ext he1
  have hd : d' = d := Fin.ext he2
  subst hb hd
  have hs : s.val = (i 0).val * 64 + r.val := he0
  rw [PayloadAt.pay_at, result_at, hs]
  exact congrArg₂ (· + ·) (congrArg₂ (· + ·) hx hpe) rfl

/-! ## The windows' index maps over the grid -/

/-- The printed index maps, decided over the 64 grid positions: the x, pe and result windows are at block row t, the
    index and embedding windows at the whole array. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0
    ∧ (grid0.coords t 0).val = t.val :=
  (by decide +kernel : ∀ t : Fin grid0.N, _)

/-- The index window's block is the whole index array. -/
theorem blk_idx (c : Dev nD) (t : Fin cfg0.N) :
    (iblk m c 2 t : S64x8.Idx → BitVec 32) = (V m c main_v5 : S64x8.Idx → BitVec 32) := by
  obtain ⟨-, -, -, -, -, -, f0, f1, -⟩ := idx_facts t
  funext y
  show V m c main_v5 (((cfg0.win 2).blk t).view.emb y) = V m c main_v5 y
  refine congrArg (V m c main_v5) (funext fun a => Fin.ext ?_)
  match a with
  | ⟨0, _⟩ => show win0_2.index t (0 : Fin 2) * 64 + 1 * (y 0).val = (y 0).val; omega
  | ⟨1, _⟩ => show win0_2.index t (1 : Fin 2) * 8 + 1 * (y 1).val = (y 1).val; omega

/-- The embedding window's block is the whole array of embedding rows. -/
theorem blk_emb (c : Dev nD) (t : Fin cfg0.N) :
    (iblk m c 3 t : S64x8x256.Idx → EReal) = (V m c main_v16 : S64x8x256.Idx → EReal) := by
  obtain ⟨-, -, -, -, -, -, -, -, f0, f1, f2, -⟩ := idx_facts t
  funext y
  show V m c main_v16 (((cfg0.win 3).blk t).view.emb y) = V m c main_v16 y
  refine congrArg (V m c main_v16) (funext fun a => Fin.ext ?_)
  match a with
  | ⟨0, _⟩ => show win0_3.index t (0 : Fin 3) * 64 + 1 * (y 0).val = (y 0).val; omega
  | ⟨1, _⟩ => show win0_3.index t (1 : Fin 3) * 8 + 1 * (y 1).val = (y 1).val; omega
  | ⟨2, _⟩ => show win0_3.index t (2 : Fin 3) * 256 + 1 * (y 2).val = (y 2).val; omega

/-! ## What each grid position writes back -/

/-- The whole-array function of the arrays as the kernel finds them. -/
abbrev found (c : Dev nD) : S4096x64x256.Idx → EReal :=
  result (V m c main_arg0) (V m c main_arg2) (V m c main_v5) (V m c main_v16)

/-- WHAT POSITION t WRITES BACK is block t of the whole-array function. -/
theorem flushed_eq (c : Dev nD) (t : Fin cfg0.N) :
    (dats m 0 c).flushed 4 t = ((cfg0.win 4).blk t).view.read (Elt Ideal) (found m c) := by
  show (cfg0.win 4).cut (grid0.coords t) ((dats m 0 c).after 4 t) = _
  rw [after0_4]
  unfold out0_4
  rw [View.canon_unit_zero hz3]
  simp only [View.ld_unit_zero (S := S64x64x256) hz3, View.ld_unit_zero (S := S64x1x256) hz3,
    View.ld_unit_zero (S := S64x8x256) hz3, View.ld_unit_zero (S := S64x8) hz2]
  obtain ⟨a0, a1, a2, p0, p1, p2, -, -, -, -, -, o0, o1, o2, g0⟩ := idx_facts t
  funext j
  show k0_pay1 (F := Ideal) (grid0.coords t) (iblk m c 2 t) (iblk m c 3 t) (iblk m c 0 t) (iblk m c 1 t) j
    = result (V m c main_arg0) (V m c main_arg2) (V m c main_v5) (V m c main_v16) (((cfg0.win 4).blk t).view.emb j)
  rw [← blk_idx m c t, ← blk_emb m c t]
  have e0 : ((((cfg0.win 4).blk t).view.emb j) 0).val = win0_4.index t (0 : Fin 3) * 64 + 1 * (j 0).val := rfl
  have e1 : ((((cfg0.win 4).blk t).view.emb j) 1).val = win0_4.index t (1 : Fin 3) * 64 + 1 * (j 1).val := rfl
  have e2 : ((((cfg0.win 4).blk t).view.emb j) 2).val = win0_4.index t (2 : Fin 3) * 256 + 1 * (j 2).val := rfl
  refine block_entry (grid0.coords t) (iblk m c 0 t) (iblk m c 1 t) (iblk m c 2 t) (iblk m c 3 t)
    (V m c main_arg0) (V m c main_arg2) j (((cfg0.win 4).blk t).view.emb j) ?_ ?_ ?_ ?_ ?_
  · rw [e0]; omega
  · rw [e1]; omega
  · rw [e2]; omega
  · show V m c main_arg0 (((cfg0.win 0).blk t).view.emb j) = V m c main_arg0 (((cfg0.win 4).blk t).view.emb j)
    refine congrArg (V m c main_arg0) (funext fun a => Fin.ext ?_)
    match a with
    | ⟨0, _⟩ => show win0_0.index t (0 : Fin 3) * 64 + 1 * (j 0).val = win0_4.index t (0 : Fin 3) * 64 + 1 * (j 0).val; omega
    | ⟨1, _⟩ => show win0_0.index t (1 : Fin 3) * 64 + 1 * (j 1).val = win0_4.index t (1 : Fin 3) * 64 + 1 * (j 1).val; omega
    | ⟨2, _⟩ => show win0_0.index t (2 : Fin 3) * 256 + 1 * (j 2).val = win0_4.index t (2 : Fin 3) * 256 + 1 * (j 2).val; omega
  · show V m c main_arg2 (((cfg0.win 1).blk t).view.emb (ix3 (j 0) (0 : Fin 1) (j 2)))
      = V m c main_arg2 (ix3 ((((cfg0.win 4).blk t).view.emb j) 0) (0 : Fin 1) ((((cfg0.win 4).blk t).view.emb j) 2))
    refine congrArg (V m c main_arg2) (funext fun a => Fin.ext ?_)
    match a with
    | ⟨0, _⟩ => show win0_1.index t (0 : Fin 3) * 64 + 1 * (j 0).val = ((((cfg0.win 4).blk t).view.emb j) 0).val; rw [e0]; omega
    | ⟨1, _⟩ => show win0_1.index t (1 : Fin 3) * 1 + 1 * 0 = 0; omega
    | ⟨2, _⟩ => show win0_1.index t (2 : Fin 3) * 256 + 1 * (j 2).val = ((((cfg0.win 4).blk t).view.emb j) 2).val; rw [e2]; omega

/-! ## The blocks tile the array -/

/-- An index of the array is in position t's block iff each coordinate is in the block's range on its axis. -/
theorem mem_blk (t : Fin cfg0.N) (i : S4096x64x256.Idx) :
    i ∈ ((cfg0.win 4).blk t).view.set ↔ ∀ a : Fin 3, win0_4.index t a * S64x64x256.size a ≤ (i a).val
      ∧ (i a).val < win0_4.index t a * S64x64x256.size a + S64x64x256.size a := by
  show i ∈ ((View.whole main_v17).slice (win0_4.rect t)).set ↔ _
  rw [View.set_slice_whole, Rect.mem_set_unit]
  exact Iff.rfl

/-- Every block row is some position's. -/
theorem idx_onto : ∀ q : Fin 64, ∃ t : Fin cfg0.N, t.val = q.val :=
  (by decide +kernel : ∀ q : Fin 64, ∃ t : Fin grid0.N, t.val = q.val)

/-- Every index of the array is in the block of the position that holds its row: row s is in block s / 64. -/
theorem cover (i : S4096x64x256.Idx) :
    ∃ t : Fin cfg0.N, (cfg0.win 4).flush t = true ∧ i ∈ ((cfg0.win 4).blk t).view.set := by
  have hi0 : (i 0).val < 4096 := (i 0).isLt
  have hi1 : (i 1).val < 64 := (i 1).isLt
  have hi2 : (i 2).val < 256 := (i 2).isLt
  obtain ⟨t, ht⟩ := idx_onto ⟨(i 0).val / 64, by omega⟩
  have ht' : t.val = (i 0).val / 64 := ht
  obtain ⟨-, -, -, -, -, -, -, -, -, -, -, o0, o1, o2, -⟩ := idx_facts t
  refine ⟨t, flush0_4 t, ?_⟩
  rw [mem_blk]
  intro a
  match a with
  | ⟨0, _⟩ => show win0_4.index t (0 : Fin 3) * 64 ≤ (i 0).val ∧ (i 0).val < win0_4.index t (0 : Fin 3) * 64 + 64; omega
  | ⟨1, _⟩ => show win0_4.index t (1 : Fin 3) * 64 ≤ (i 1).val ∧ (i 1).val < win0_4.index t (1 : Fin 3) * 64 + 64; omega
  | ⟨2, _⟩ => show win0_4.index t (2 : Fin 3) * 256 ≤ (i 2).val ∧ (i 2).val < win0_4.index t (2 : Fin 3) * 256 + 256; omega

/-- THE RESULT ARRAY after the run: the whole-array function of the arrays as the kernel finds them. -/
theorem final (c : Dev nD) : (dats m 0 c).arrAt 4 cfg0.N = found m c :=
  (dats m 0 c).arrAt_eq_of_cover 4 (found m c) (fun t _ => flushed_eq m c t) cover

/-- … which is the whole-array function of the ARGUMENTS: x and pe as launched, the masked peak positions and the
    embedding rows the host computed from the peak positions and the table. -/
theorem found_eq (c : Dev nD) :
    found m c = result (m ((c : Thread nD τ).loc main_arg0)) (m ((c : Thread nD τ).loc main_arg2))
      (idxK (m ((c : Thread nD τ).loc main_arg1)))
      (embK (m ((c : Thread nD τ).loc main_arg1)) (m ((c : Thread nD τ).loc main_arg3))) := by
  unfold found
  rw [V_main_arg0, V_main_arg2, V_idx, V_emb]

/-! ## The run, read -/

/-- Every weakly fair execution of the idealized kernel program terminates with the result array at the whole-array
    function of the arguments, the arguments unchanged. -/
theorem run : θ_run defs (onTc (τ := τ) (main (F := Ideal))) ⟨m, fun _ => 0, ρ⟩ fun r => ∀ c : Dev nD,
      r.2.mem ((c : Thread nD τ).loc main_v17)
        = result (m ((c : Thread nD τ).loc main_arg0)) (m ((c : Thread nD τ).loc main_arg2))
            (idxK (m ((c : Thread nD τ).loc main_arg1)))
            (embK (m ((c : Thread nD τ).loc main_arg1)) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(((h c).1 4).trans (final m c)).trans (found_eq m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c)⟩)
    (run_main m ρ)

end Cert.KernelIdeal.PeakValue

end
-- ==== Proof.RefValue.lean ====
/-
  The reference's result as the same whole-array function.

  The reference adds pe (broadcast over the batch) to x, then adds a scatter of the embedding rows into a zero array:
  row (b, p) goes to position (index of (b, p), b), and rows that land on one position add up. The scatter's index pairs
  are the masked peak position and the batch number, each passed through "add the extent if negative"; neither is ever
  negative (the mask keeps only positions in [0, 4096), and a batch number is a count), so the pairs are the masked
  position and b itself. The accumulating scatter at (s, b, d) is then the sum over the peaks p of batch b of the
  0/1 factor "the masked position of (b, p) is s" times the row entry (b, p, d), starting from zero.
-/
import proofs.«156840_j69827578298900_2_alg».proof.Proof.Gen.ReferenceIdeal.Read
import proofs.«156840_j69827578298900_2_alg».proof.Proof.PeakMath
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.Peak Cert.Lib.SignedIndex

variable (x1 : S64x8.Idx → BitVec 32)

/-- The masked peak position of (b, p): the position where it is in [0, 4096), else 0. -/
theorem masked_at (b : Fin 64) (p : Fin 8) : val_main_v7 (F := Ideal) x1 (ix2 b p) = kept (x1 (ix2 b p)) := by
  rw [val_main_v7_apply, val_main_v6_apply, val_main_v3_apply, val_main_v5_apply, val_main_v2_apply, val_main_v4_apply,
    val_main_call0_v1_apply]
  rfl

/-- The first index of the pair of (b, p) is the masked peak position: it is not negative, so it is not wrapped. -/
theorem pair_fst (b : Fin 64) (p : Fin 8) :
    val_main_v35 (F := Ideal) x1 (ix3 b p (0 : Fin 2)) = val_main_v7 (F := Ideal) x1 (ix2 b p) := by
  unfold val_main_v35
  refine (concatenate_pair_apply_left (2 : Fin S64x8x2.rank) _ _ concatenates_S64x8x1_S64x8x1_S64x8x2_d2
    (ix3 b p (0 : Fin 2)) rfl (ix3 b p (0 : Fin 1)) (fun a => ?_)).trans ?_
  · match a with
    | ⟨0, _⟩ => rfl
    | ⟨1, _⟩ => rfl
    | ⟨2, _⟩ => rfl
  · have e : idx_main_v33 (ix3 b p (0 : Fin 1)) = ix2 b p := funext fun a => by
      match a with
      | ⟨0, _⟩ => rfl
      | ⟨1, _⟩ => rfl
    rw [val_main_v33_apply, e, val_main_v27_apply, val_main_v24_apply, val_main_v26_apply, val_main_v23_apply,
      val_main_v25_apply]
    exact wrap_of_nonneg _ _ (by rw [masked_at]; exact kept_nonneg _)

/-- The second index of the pair of (b, p) is the batch number b. -/
theorem pair_snd (b : Fin 64) (p : Fin 8) :
    (val_main_v35 (F := Ideal) x1 (ix3 b p (1 : Fin 2))).toInt = (b.val : Int) := by
  have hb : b.val < 2147483648 := by have := b.isLt; omega
  have e : val_main_v35 (F := Ideal) x1 (ix3 b p (1 : Fin 2)) = BitVec.ofNat 32 b.val := by
    unfold val_main_v35
    refine (concatenate_pair_apply_right (2 : Fin S64x8x2.rank) _ _ concatenates_S64x8x1_S64x8x1_S64x8x2_d2
      (ix3 b p (1 : Fin 2)) rfl rfl (ix3 b p (0 : Fin 1)) (fun a ha => ?_) rfl).trans ?_
    · match a with
      | ⟨0, _⟩ => rfl
      | ⟨1, _⟩ => rfl
      | ⟨2, _⟩ => exact absurd rfl ha
    · have e34 : idx_main_v34 (ix3 b p (0 : Fin 1)) = ix2 b p := funext fun a => by
        match a with
        | ⟨0, _⟩ => rfl
        | ⟨1, _⟩ => rfl
      have e21 : val_main_v21 (F := Ideal) (ix2 b p) = BitVec.ofNat 32 b.val := by
        rw [val_main_v21_apply, val_main_v20_apply, val_main_v19_apply]
      rw [val_main_v34_apply, e34, val_main_v32_apply, val_main_v29_apply, val_main_v31_apply, val_main_v28_apply,
        val_main_v30_apply, e21]
      exact wrap_of_nonneg _ _ (by rw [toInt_ofNat_small _ hb]; omega)
  rw [e, toInt_ofNat_small _ hb]

/-- THE REFERENCE'S RESULT is the whole-array function of x, pe, the masked peak positions and the embedding rows. -/
theorem ref_is_result (x0 : S4096x64x256.Idx → EReal) (x2 : S4096x1x256.Idx → EReal) (x3 : S4096x256.Idx → EReal) :
    val_main_v37 (F := Ideal) x0 x1 x2 x3
      = result x0 x2 (val_main_v7 (F := Ideal) x1) (val_main_v18 (F := Ideal) x1 x3) := by
  funext i
  obtain ⟨s, b, d, rfl⟩ : ∃ (s : Fin 4096) (b : Fin 64) (d : Fin 256), i = ix3 s b d := ⟨i 0, i 1, i 2, eq_ix3 i⟩
  have e0 : idx_main_v0 (ix3 s b d) = ix3 s (0 : Fin 1) d := funext fun a => by
    match a with
    | ⟨0, _⟩ => rfl
    | ⟨1, _⟩ => rfl
    | ⟨2, _⟩ => rfl
  rw [val_main_v37_apply, val_main_v1_apply, val_main_v0_apply, e0, result_at]
  show (x0 (ix3 s b d) + x2 (ix3 s (0 : Fin 1) d)) + val_main_v36 (F := Ideal) x1 x3 (ix3 s b d) = _
  refine congrArg (fun z => (x0 (ix3 s b d) + x2 (ix3 s (0 : Fin 1) d)) + z) ?_
  unfold val_main_v36
  show Ideal.hostScatterAdd (sd scatter_S4096x64x256_S64x8x2_S64x8x256_2_01_01_2_wf) (val_main_v22 (F := Ideal))
    (val_main_v35 (F := Ideal) x1) (val_main_v18 (F := Ideal) x1 x3) (ix3 s b d) = _
  rw [scatterAdd_at _ _ _ _ (pair_snd x1) s b d, val_main_v22_apply, val_main_cst_apply]
  show Ideal.ofBits .f32 0x00000000#32 + _ = _
  rw [Ideal.ofBits_zero_f32, zero_add]
  exact Finset.sum_congr rfl fun p _ => by rw [pair_fst]

end Cert.ReferenceIdeal.RefValue

end
-- ==== Proof.lean ====
/-
  The five claims, assembled.

  The kernel adds to x[s, b, :] + pe[s, 0, :] the embedding rows of the peaks of batch b that sit at sequence position s,
  by a batched product of a 0/1 "peak (b, p) sits at s" factor with the embedding rows; the reference scatters each
  embedding row to the position its peak names, rows landing together adding up. At the extended reals both are one
  whole-array function of x, pe, the masked peak positions and the embedding rows (`Cert.Peak.result`,
  Proof/PeakMath.lean): the kernel's result array by reading the blocks its 64 grid positions write back
  (Proof/KernelValue.lean, over the entry-by-entry reading of the stored value in Proof/KernelPayload.lean), the
  reference's by reading its accumulating scatter at an index (Proof/RefValue.lean). The masked positions and the embedding
  rows are computed by the same host operations in both programs, from the same arguments. No entry is asked to be
  finite: every product is with 0 or 1, and the sums are the same sums.

  The three frames: the two kernel programs by their frame certificates, the reference by its run with the result
  dropped. The idealization rewrote nothing, so there is nothing to preserve.
-/
import proofs.«156840_j69827578298900_2_alg».proof.Defs
import proofs.«156840_j69827578298900_2_alg».proof.Proof.Gen.Kernel
import proofs.«156840_j69827578298900_2_alg».proof.Proof.Gen.KernelIdeal
import proofs.«156840_j69827578298900_2_alg».proof.Proof.Gen.ReferenceIdeal
import proofs.«156840_j69827578298900_2_alg».proof.Proof.Gen.Pre_finite_inputs
import proofs.«156840_j69827578298900_2_alg».proof.Proof.FrameKernel
import proofs.«156840_j69827578298900_2_alg».proof.Proof.FrameKernelIdeal
import proofs.«156840_j69827578298900_2_alg».proof.Proof.Gen.ReferenceIdeal.Run
import proofs.«156840_j69827578298900_2_alg».proof.Proof.Gen.ReferenceIdeal.Read
import proofs.«156840_j69827578298900_2_alg».proof.Proof.KernelValue
import proofs.«156840_j69827578298900_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.GenP.frame m ρ

theorem frame_kernelIdeal : Cert.frame_KernelIdeal := fun m ρ _ => Cert.KernelIdeal.GenP.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The masked peak positions are computed by the same operations in both programs. -/
theorem same_positions (x1 : Cert.KernelIdeal.S64x8.Idx → BitVec 32) :
    Cert.KernelIdeal.PeakValue.idxK x1 = Cert.ReferenceIdeal.Read.val_main_v7 (F := Ideal) x1 := rfl

/-- The embedding rows are computed by the same operations in both programs. -/
theorem same_rows (x1 : Cert.KernelIdeal.S64x8.Idx → BitVec 32) (x3 : Cert.KernelIdeal.S4096x256.Idx → EReal) :
    Cert.KernelIdeal.PeakValue.embK x1 x3 = Cert.ReferenceIdeal.Read.val_main_v18 (F := Ideal) x1 x3 := rfl

/-- From memories agreeing on the arguments, both programs end with the result array at one whole-array function. -/
theorem algebraic : Cert.algebraic_KernelIdeal_ReferenceIdeal := by
  intro m ρ m' ρ' _ hagree
  refine ⟨_, Cert.KernelIdeal.PeakValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.ReferenceIdeal.RefValue.ref_is_result,
    (hagree c).1, (hagree c).2.1, (hagree c).2.2.1, (hagree c).2.2.2, same_positions, same_rows]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
